-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S800000x64 .f32) (main_arg3 : FVec F S192x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S128x128 : Shape := ⟨2, ![128, 128]⟩
abbrev S1x128 : Shape := ⟨2, ![1, 128]⟩
abbrev S4000x128 : Shape := ⟨2, ![4000, 128]⟩
abbrev S4000x64 : Shape := ⟨2, ![4000, 64]⟩

abbrev nBuf : Space → Nat
  | .hbm => 26
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S64x128, .f32⟩
  | .hbm, ⟨19, _⟩ => ⟨S128x128, .f32⟩
  | .hbm, ⟨20, _⟩ => ⟨S1x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x64, .f32⟩
  | .local _ .vmem, ⟨3, _⟩ => ⟨S4000x64, .f32⟩
  | .local _ .vmem, ⟨4, _⟩ => ⟨S128x128, .f32⟩
  | .local _ .vmem, ⟨5, _⟩ => ⟨S64x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S192x128_S64x128_0_0 : S192x128.Slices ![0, 0] S64x128
  slices_S192x128_S128x128_64_0 : S192x128.Slices ![64, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S800000x128.size a
  hwx0_5 : ∀ i : grid0.Coords, EltTy.bits .f32 = 32 ∨ (Rect.block (s := S800000x128) S4000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S192x128 : Shape := ⟨2, ![192, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S192x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x192, .f32⟩
  | .hbm, ⟨19, _⟩ => ⟨S800000x128, .f32⟩
  | .hbm, ⟨20, _⟩ => ⟨S1x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x128_S800000x192_d1 : Shape.Concatenates [S800000x64, S800000x128] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibPlainDot.lean ====
/-
  A plain matrix product read one entry at a time, over the extended reals.

  For an M×K array l and a K×N array r, the product's entry (p, q) is the sum over k of l(p, k) * r(k, q). This holds
  of the accelerator's matrix unit started from a zero accumulator and of the host's general dot product alike: both
  are exact sums at the ideal values, and a sum over the one contracted axis is re-indexed by that axis's coordinate.
  Adding a bias row b(q) to every row gives the linear layer's entry, `linRow`: it depends on the left operand only
  through its row p. That is the whole reason a product computed on blocks of rows agrees with the product computed
  on all rows at once.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibPlainDot

open Idealize.ShloMosaic Idealize.ShloMosaic.ValueIdx

/-- The plain product contracts one axis … -/
theorem plain_rank (M K N : ℕ) : (DotDims.plain M K N).contr.rank = 1 := rfl

/-- … of extent K. -/
theorem plain_size (M K N : ℕ) : (DotDims.plain M K N).contr.size ⟨0, by rw [plain_rank]; exact Nat.one_pos⟩ = K := rfl

/-- The contraction positions of a plain product are the K coordinates of the contracted axis. -/
abbrev plainEquiv (M K N : ℕ) : (DotDims.plain M K N).contr.Idx ≃ Fin K :=
  contrEquiv1 (DotDims.plain M K N) K (plain_rank M K N) (plain_size M K N)

/-- At output entry (p, q) and contraction coordinate k the left operand is read at (p, k). -/
theorem plain_lhsIdx (M K N : ℕ) (p : Fin M) (q : Fin N) (k : Fin K) :
    (DotDims.plain M K N).lhsIdx (ix2 p q) ((plainEquiv M K N).symm k) = ix2 p k := by
  funext a
  match a with
  | ⟨0, _⟩ => exact Fin.ext rfl
  | ⟨1, _⟩ =>
    exact Fin.ext ((DotDims.lhsIdx_val_of_single (DotDims.plain M K N) (cl := 1) rfl _ _).trans (contrEquiv1_symm_val _ _ _ _ k))

/-- At output entry (p, q) and contraction coordinate k the right operand is read at (k, q). -/
theorem plain_rhsIdx (M K N : ℕ) (p : Fin M) (q : Fin N) (k : Fin K) :
    (DotDims.plain M K N).rhsIdx (ix2 p q) ((plainEquiv M K N).symm k) = ix2 k q := by
  funext a
  match a with
  | ⟨1, _⟩ => exact Fin.ext rfl
  | ⟨0, _⟩ =>
    exact Fin.ext ((DotDims.rhsIdx_val_of_single (DotDims.plain M K N) (cr := 0) rfl _ _).trans (contrEquiv1_symm_val _ _ _ _ k))

/-- The product's sum over contraction positions is the sum over k of l(p, k) * r(k, q). -/
theorem plain_sum (M K N : ℕ) (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (plainEquiv M K N).symm]
  exact Finset.sum_congr rfl fun k _ => by rw [plain_lhsIdx, plain_rhsIdx]

/-- The matrix unit from a zero accumulator, at entry (p, q). -/
theorem plain_matmul {φ₁ φ₂ : FTy} (M K N : ℕ) (l : FVec Ideal ⟨2, ![M, K]⟩ φ₁) (r : FVec Ideal ⟨2, ![K, N]⟩ φ₂) (p : Fin M) (q : Fin N) :
    FloatOps.matmul (DotDims.plain M K N) none l r (constant _ .f32 0x00000000#32) (ix2 p q) = ∑ k : Fin K, l (ix2 p k) * r (ix2 k q) := by
  rw [Ideal.matmul_constant_zero_apply]; exact plain_sum M K N l r p q

/-- The host's general dot product, at entry (p, q). -/
theorem plain_dotGeneral {φ₁ φ₂ : FTy} (M K N : ℕ) (sched : HostSchedule) (l : FVec Ideal ⟨2, ![M, K]⟩ φ₁) (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply]; exact plain_sum M K N l r p q

/-- One entry of a linear layer: the row x times column c of w, plus the bias at c. -/
def linRow {K C : ℕ} (x : Fin K → EReal) (w : (⟨2, ![K, C]⟩ : Shape).Idx → EReal) (b : (⟨1, ![C]⟩ : Shape).Idx → EReal) (c : Fin C) : EReal :=
  (∑ k : Fin K, x k * w (ix2 k c)) + b (ix1 c)

/-- A bias vector given a leading unit axis and repeated down the rows reads b(q) at (p, q). -/
theorem biasRows_apply {α : Type} {M N : ℕ} (b : (⟨1, ![N]⟩ : Shape).Idx → α) (h : (⟨1, ![N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix1 q) := by
  rw [broadcastTo_1b_ab_apply, shapeCast_a_1a_apply]

/-- The host's spelling of the same: the vector laid along axis 1 of a one-row array, that row laid along both axes. -/
theorem biasRowsInDim_apply {α : Type} {M N : ℕ} (b : (⟨1, ![N]⟩ : Shape).Idx → α)
    (h : (⟨1, ![N]⟩ : Shape).BroadcastsInDim ⟨2, ![1, N]⟩ ![1]) (h' : (⟨2, ![1, N]⟩ : Shape).BroadcastsInDim ⟨2, ![M, N]⟩ ![0, 1])
    (p : Fin M) (q : Fin N) :
    broadcastInDim ⟨2, ![M, N]⟩ ![0, 1] h' (broadcastInDim ⟨2, ![1, N]⟩ ![1] h b) (ix2 p q) = b (ix1 q) := by
  rw [broadcastInDim_apply ![0, 1] h' _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h b (ix2 (0 : Fin 1) q) (ix1 q) (fun a => by
        match a with
        | ⟨0, _⟩ =>
          show q.val = if N = 1 then 0 else q.val
          split
          · have := q.isLt; omega
          · rfl)]

/-- THE KERNEL'S LINEAR LAYER at entry (p, q): the matrix unit from zero plus the bias rows is the row's `linRow`. -/
theorem matmul_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = linRow (fun k => l (ix2 p k)) r b q := by
  subst hd
  rw [addf_apply, biasRows_apply]
  exact congrArg (· + b (ix1 q)) (plain_matmul M K N l r p q)

/-- THE HOST'S LINEAR LAYER at entry (p, q): the general dot product plus the bias rows is the same `linRow`. -/
theorem dot_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (p : Fin M) (q : Fin N) :
    addf (Host.dotGeneral d none l r) (broadcastInDim ⟨2, ![M, N]⟩ ![0, 1] h' (broadcastInDim ⟨2, ![1, N]⟩ ![1] h b)) (ix2 p q)
      = linRow (fun k => l (ix2 p k)) r b q := by
  subst hd
  rw [addf_apply, biasRowsInDim_apply]
  exact congrArg (· + b (ix1 q)) (plain_dotGeneral M K N _ l r p q)

/-- Two rows that agree entry by entry, through weights and biases that agree, give the same layer entry. -/
theorem linRow_congr {K C : ℕ} {x x' : Fin K → EReal} {w w' : (⟨2, ![K, C]⟩ : Shape).Idx → EReal} {b b' : (⟨1, ![C]⟩ : Shape).Idx → EReal}
    (hx : ∀ k, x k = x' k) (hw : w = w') (hb : b = b') (c : Fin C) : linRow x w b c = linRow x' w' b' c := by
  subst hw; subst hb
  exact congrArg (· + b (ix1 c)) (Finset.sum_congr rfl fun k _ => by rw [hx k])

end Cert.LibPlainDot

end
-- ==== Proof.MessageSpec.lean ====
/-
  The edge message of one graph layer, entry by entry, over the extended reals.

  An edge e carries its own 64 features ea(e, ·) and the 128 features xj(e, ·) of its source node. The layer's
  weight W has 192 rows: rows 0..63 meet the edge features, rows 64..191 the node features. The message at (e, o) is

      max( Σ_{k<128} xj(e,k) · W(64+k, o)  +  Σ_{k<64} ea(e,k) · W(k, o)  +  b(o) ,  0 ).

  One side of the comparison computes the two partial sums separately and adds them; the other lays ea(e, ·) and
  xj(e, ·) end to end as one row of 192 entries and takes a single sum against all of W. The two agree because a
  sum over 64 + 128 indices is the sum over the first 64 plus the sum over the last 128, and addition of extended
  reals is commutative. No entry need be finite for this.
-/
import Idealize.ShloMosaic.PureOps.Ideal.Laws
import Idealize.ShloMosaic.Lib.ValueIdx

noncomputable section

namespace Cert.Message

open Idealize.ShloMosaic Idealize.ShloMosaic.ValueIdx

/-- Row k of the edge-feature part of W, as a row of W. -/
abbrev lo (k : Fin 64) : Fin 192 := ⟨k.val, by omega⟩
/-- Row k of the node-feature part of W, as a row of W: 64 rows further down. -/
abbrev hi (k : Fin 128) : Fin 192 := ⟨64 + k.val, by omega⟩

/-- The float zero the rectifier compares against (its word is never evaluated: both sides carry the same one). -/
abbrev zero : EReal := FloatOps.ofBits (F := Ideal) .f32 0x00000000#32

/-- The message at edge e, output feature o. -/
def msgAt (xj : (⟨2, ![800000, 128]⟩ : Shape).Idx → EReal) (ea : (⟨2, ![800000, 64]⟩ : Shape).Idx → EReal)
    (W : (⟨2, ![192, 128]⟩ : Shape).Idx → EReal) (b : (⟨1, ![128]⟩ : Shape).Idx → EReal) (e : Fin 800000) (o : Fin 128) : EReal :=
  max ((∑ k : Fin 128, xj (ix2 e k) * W (ix2 (hi k) o)) + (∑ k : Fin 64, ea (ix2 e k) * W (ix2 (lo k) o)) + b (ix1 o)) zero

/-- All messages, as one array over (edge, output feature). -/
def msg (xj : (⟨2, ![800000, 128]⟩ : Shape).Idx → EReal) (ea : (⟨2, ![800000, 64]⟩ : Shape).Idx → EReal)
    (W : (⟨2, ![192, 128]⟩ : Shape).Idx → EReal) (b : (⟨1, ![128]⟩ : Shape).Idx → EReal) :
    (⟨2, ![800000, 128]⟩ : Shape).Idx → EReal :=
  fun i => msgAt xj ea W b (i 0) (i 1)

/-- A sum over 192 = 64 + 128 indices is the sum over the last 128 plus the sum over the first 64. -/
theorem sum_split (f : Fin 192 → EReal) :
    ∑ k : Fin 192, f k = (∑ k : Fin 128, f (hi k)) + (∑ k : Fin 64, f (lo k)) := by
  have h := Fin.sum_univ_add (M := EReal) (a := 64) (b := 128) f
  rw [add_comm]
  exact h

end Cert.Message

end
-- ==== Proof.BodyValue.lean ====
/-
  What the kernel body stores, read one entry at a time.

  At a grid point the body holds a block of 4000 edges: their source-node features x0 (4000 × 128), their edge
  features x1 (4000 × 64), the node-feature rows of the weight x2 (128 × 128), its edge-feature rows x3 (64 × 128)
  and the bias as one row x4 (1 × 128). It multiplies x0 by x2 and x1 by x3, each from a zero accumulator, adds the
  two products, adds the bias row to every row, and takes the maximum with zero. Over the extended reals a change
  of float format is the identity and each product entry is the plain sum over the contracted axis, so entry
  (p, q) of the stored block is

      max( Σ_k x0(p,k) · x2(k,q) + Σ_k x1(p,k) · x3(k,q) + x4(0,q) , 0 ).
-/
import proofs.«159112_j36807869727435_1_alg».proof.Proof.Gen.KernelIdeal.Skeleton
import proofs.«159112_j36807869727435_1_alg».proof.Proof.LibPlainDot
import proofs.«159112_j36807869727435_1_alg».proof.Proof.MessageSpec
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The node-feature product's record is the plain 4000×128 by 128×128 product. -/
theorem dotX_plain : dot_S4000x128_S128x128_S4000x128_1_0_0_1_n_n = DotDims.plain 4000 128 128 := rfl
/-- The edge-feature product's record is the plain 4000×64 by 64×128 product. -/
theorem dotE_plain : dot_S4000x64_S64x128_S4000x128_1_0_0_1_n_n = DotDims.plain 4000 64 128 := rfl

/-- Entry (p, q) of the block the body stores. -/
theorem pay_at (x0 : Vec Ideal S4000x128 .f32) (x1 : Vec Ideal S4000x64 .f32) (x2 : Vec Ideal S128x128 .f32)
    (x3 : Vec Ideal S64x128 .f32) (x4 : Vec Ideal S1x128 .f32) (p : Fin 4000) (q : Fin 128) :
    k0_pay1 (F := Ideal) x0 x1 x2 x3 x4 (ix2 p q)
      = max ((∑ k : Fin 128, x0 (ix2 p k) * x2 (ix2 k q)) + (∑ k : Fin 64, x1 (ix2 p k) * x3 (ix2 k q)) + x4 (ix2 (0 : Fin 1) q))
          Cert.Message.zero := by
  unfold k0_pay1
  simp only [shapeCast_self]
  rw [maximumf_apply, addf_apply, addf_apply, broadcastTo_1b_ab_apply, dotX_plain, dotE_plain]
  have hX := Cert.LibPlainDot.plain_matmul 4000 128 128 (truncf .bf16 x0 bitsLt_bf16_f32 : FVec Ideal S4000x128 .bf16)
    (truncf .bf16 x2 bitsLt_bf16_f32 : FVec Ideal S128x128 .bf16) p q
  have hE := Cert.LibPlainDot.plain_matmul 4000 64 128 (truncf .bf16 x1 bitsLt_bf16_f32 : FVec Ideal S4000x64 .bf16)
    (truncf .bf16 x3 bitsLt_bf16_f32 : FVec Ideal S64x128 .bf16) p q
  exact congrArg₂ max (congrArg₂ (· + ·) (congrArg₂ (· + ·) hX hE) rfl) rfl

end Cert.KernelIdeal.Body

end
-- ==== Proof.KernelArray.lean ====
/-
  The message array the kernel's region leaves behind, as ONE function of the arrays its windows read.

  The region walks 200 grid points. Point t reads rows 4000·t .. 4000·t + 3999 of the gathered node features and of
  the edge features, reads the two weight pieces and the bias row whole, and writes rows 4000·t .. 4000·t + 3999 of
  the output. An output entry (e, o) depends on the inputs only through row e, so the block point t writes is the
  restriction to its rows of a single function of the whole arrays — `rows` below — and since the 200 blocks of
  4000 rows tile all 800000 rows, the array after the region IS that function.
-/
import proofs.«159112_j36807869727435_1_alg».proof.Proof.Gen.KernelIdeal.Frame
import proofs.«159112_j36807869727435_1_alg».proof.Proof.BodyValue
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every load and the store of the body start at the block's corner. -/
theorem corner : (![0, 0] : Fin 2 → Nat) = fun _ => 0 := funext fun a => by fin_cases a <;> rfl

/-- The output as a function of the five arrays the windows read: entry (e, o) from row e of the node and edge
    features, column o of the two weight pieces, and entry o of the bias row. -/
def rows (a0 : S800000x128.Idx → EReal) (a1 : S800000x64.Idx → EReal) (a2 : S128x128.Idx → EReal)
    (a3 : S64x128.Idx → EReal) (a4 : S1x128.Idx → EReal) : S800000x128.Idx → EReal := fun i =>
  max ((∑ k : Fin 128, a0 (ix2 (i 0) k) * a2 (ix2 k (i 1))) + (∑ k : Fin 64, a1 (ix2 (i 0) k) * a3 (ix2 k (i 1)))
      + a4 (ix2 (0 : Fin 1) (i 1))) Cert.Message.zero

/-- Which block each window is on at point t: the row-blocked windows (node features, edge features, output) on
    block t of their rows, the weight pieces and the bias on their only block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of `rows` of the arrays as the region finds them. -/
theorem flushed_eq (c : Dev nD) (t : Fin cfg0.N) :
    (dats m 0 c).flushed 5 t = ((cfg0.win 5).blk t).view.read (Elt Ideal)
      (rows (V m c main_v10) (V m c main_arg2) (V m c main_v12) (V m c main_v11) (V m c main_v13)) := by
  show (cfg0.win 5).cut (grid0.coords t) ((dats m 0 c).after 5 t) = _
  rw [after0_5]
  unfold out0_5
  rw [View.canon_unit_zero corner]
  simp only [View.ld_unit_zero (S := S4000x128) corner, View.ld_unit_zero (S := S4000x64) corner,
    View.ld_unit_zero (S := S128x128) corner, View.ld_unit_zero (S := S64x128) corner, View.ld_unit_zero (S := S1x128) corner]
  obtain ⟨e00, e01, e10, e11, e20, e21, e30, e31, e40, e41, e50, e51⟩ := index_facts t
  funext j
  obtain ⟨p, q, rfl⟩ : ∃ (p : Fin 4000) (q : Fin 128), j = ix2 p q := ⟨j 0, j 1, eq_ix2 j⟩
  show k0_pay1 (F := Ideal) (iblk m c 0 t) (iblk m c 1 t) (iblk m c 2 t) (iblk m c 3 t) (iblk m c 4 t) (ix2 p q)
    = rows (V m c main_v10) (V m c main_arg2) (V m c main_v12) (V m c main_v11) (V m c main_v13) (((cfg0.win 5).blk t).view.emb (ix2 p q))
  refine (Cert.KernelIdeal.Body.pay_at _ _ _ _ _ p q).trans ?_
  -- each input block is its array read at the output entry's row (or, for the whole-array windows, at the same place)
  have h0 : ∀ k : Fin 128, iblk m c 0 t (ix2 p k)
      = V m c main_v10 (ix2 ((((cfg0.win 5).blk t).view.emb (ix2 p q)) 0) k) := fun k => by
    show V m c main_v10 (((cfg0.win 0).blk t).view.emb (ix2 p k)) = _
    refine congrArg (V m c main_v10) (funext fun a => Fin.ext ?_)
    match a with
    | ⟨0, _⟩ => show win0_0.index t (0 : Fin 2) * 4000 + 1 * p.val = win0_5.index t (0 : Fin 2) * 4000 + 1 * p.val; omega
    | ⟨1, _⟩ => show win0_0.index t (1 : Fin 2) * 128 + 1 * k.val = k.val; omega
  have h1 : ∀ k : Fin 64, iblk m c 1 t (ix2 p k)
      = V m c main_arg2 (ix2 ((((cfg0.win 5).blk t).view.emb (ix2 p q)) 0) k) := fun k => by
    show V m c main_arg2 (((cfg0.win 1).blk t).view.emb (ix2 p k)) = _
    refine congrArg (V m c main_arg2) (funext fun a => Fin.ext ?_)
    match a with
    | ⟨0, _⟩ => show win0_1.index t (0 : Fin 2) * 4000 + 1 * p.val = win0_5.index t (0 : Fin 2) * 4000 + 1 * p.val; omega
    | ⟨1, _⟩ => show win0_1.index t (1 : Fin 2) * 64 + 1 * k.val = k.val; omega
  have h2 : ∀ k : Fin 128, iblk m c 2 t (ix2 k q)
      = V m c main_v12 (ix2 k ((((cfg0.win 5).blk t).view.emb (ix2 p q)) 1)) := fun k => by
    show V m c main_v12 (((cfg0.win 2).blk t).view.emb (ix2 k q)) = _
    refine congrArg (V m c main_v12) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have h3 : ∀ k : Fin 64, iblk m c 3 t (ix2 k q)
      = V m c main_v11 (ix2 k ((((cfg0.win 5).blk t).view.emb (ix2 p q)) 1)) := fun k => by
    show V m c main_v11 (((cfg0.win 3).blk t).view.emb (ix2 k q)) = _
    refine congrArg (V m c main_v11) (funext fun a => Fin.ext ?_)
    match a with
    | ⟨0, _⟩ => show win0_3.index t (0 : Fin 2) * 64 + 1 * k.val = k.val; omega
    | ⟨1, _⟩ => show win0_3.index t (1 : Fin 2) * 128 + 1 * q.val = win0_5.index t (1 : Fin 2) * 128 + 1 * q.val; omega
  have h4 : iblk m c 4 t (ix2 (0 : Fin 1) q)
      = V m c main_v13 (ix2 (0 : Fin 1) ((((cfg0.win 5).blk t).view.emb (ix2 p q)) 1)) := by
    show V m c main_v13 (((cfg0.win 4).blk t).view.emb (ix2 (0 : Fin 1) q)) = _
    refine congrArg (V m c main_v13) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega
  unfold rows
  refine congrArg (max · Cert.Message.zero) ?_
  refine congrArg₂ (· + ·) (congrArg₂ (· + ·) (Finset.sum_congr rfl fun k _ => ?_) (Finset.sum_congr rfl fun k _ => ?_)) h4
  · exact congrArg₂ (· * ·) (h0 k) (h2 k)
  · exact congrArg₂ (· * ·) (h1 k) (h3 k)

/-- An index of the output array is in point t's block iff each coordinate is in the block's range on its axis. -/
theorem mem_blk (t : Fin cfg0.N) (i : S800000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v14).slice (win0_5.rect t)).set ↔ _
  rw [View.set_slice_whole, Rect.mem_set_unit]
  exact Iff.rfl

/-- Every entry of the output is in some point's block: row r is written by point r / 4000. -/
theorem cover (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  obtain ⟨t, ht⟩ : ∃ t : Fin cfg0.N, t.val = (i 0).val / 4000 :=
    ⟨⟨(i 0).val / 4000, by have h := N_0; show (i 0).val / 4000 < grid0.N; omega⟩, rfl⟩
  obtain ⟨-, -, -, -, -, -, -, -, -, -, e50, e51⟩ := index_facts t
  refine ⟨t, flush0_5 t, ?_⟩
  rw [mem_blk]
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 128 ≤ (i 1).val ∧ (i 1).val < win0_5.index t (1 : Fin 2) * 128 + 128
    omega

/-- THE MESSAGE ARRAY after the region is `rows` of the arrays as the region finds them. -/
theorem final (c : Dev nD) : (dats m 0 c).arrAt 5 cfg0.N
    = rows (V m c main_v10) (V m c main_arg2) (V m c main_v12) (V m c main_v11) (V m c main_v13) :=
  (dats m 0 c).arrAt_eq_of_cover 5 _ (fun t _ => flushed_eq m c t) cover

end Cert.KernelIdeal.Region

end
-- ==== Proof.KernelAround.lean ====
/-
  The host lines around the kernel's region, and the kernel program's result as one term of its arguments.

  Before the region the program takes row 0 of the edge list as source node numbers (a negative number counted from
  the end), gathers those rows of the node features, cuts the weight into its first 64 rows (which meet the edge
  features) and its last 128 rows (which meet the node features), and lays the bias out as one row. The region then
  leaves `rows` of these. Read through the cuts, `rows` is the specification's message array: row k of the lower
  piece is row 64 + k of the weight, row k of the upper piece is row k, and the one-row bias at column o is the bias
  at o. After the region the program adds every edge's message into the row of a zero array that row 1 of the edge
  list names; that is `result`.
-/
import proofs.«159112_j36807869727435_1_alg».proof.Proof.Gen.KernelIdeal.Frame
import proofs.«159112_j36807869727435_1_alg».proof.Proof.KernelArray
import proofs.«159112_j36807869727435_1_alg».proof.Proof.MessageSpec
import Idealize.ShloMosaic.Lib.StableHlo.Run
import Idealize.ShloMosaic.Lib.Pipeline.Value
import Idealize.ShloMosaic.Lib.ValueLayout

noncomputable section

namespace Cert.KernelIdeal.Around

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.Message (lo hi)

/-! ## The pieces, as functions of the arguments -/

/-- Row r of the edge list as a vector of 800000 node numbers is a cut and a reshape; the source row: -/
abbrev srcRow (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- The source node numbers the gather reads with: a negative number has 50000 added; laid out as a column. -/
def srcIdx (x1 : (⟨S2x800000, .i32⟩ : BufTy).Contents (Elt Ideal)) : (⟨S800000x1, .i32⟩ : BufTy).Contents (Elt Ideal) :=
  broadcastInDim S800000x1 ![0] bcast_S800000_S800000x1_0
    (select (cmpi .slt (srcRow x1) (broadcastInDim S800000 ![] bcast_S_S800000 (constantI S_ 32 0#32)))
      (addi (srcRow x1) (broadcastInDim S800000 ![] bcast_S_S800000 (constantI S_ 32 50000#32))) (srcRow x1))

/-- The destination node numbers the final sum files messages under: row 1 of the edge list, as a column. -/
def dstIdx (x1 : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] x1 slices_S2x800000_S1x800000_1_0) shapeCasts_S1x800000_S800000)

/-- Each edge's source-node features. -/
def gathered (x0 : (⟨S50000x128, .f32⟩ : BufTy).Contents (Elt Ideal)) (x1 : (⟨S2x800000, .i32⟩ : BufTy).Contents (Elt Ideal)) :
    (⟨S800000x128, .f32⟩ : BufTy).Contents (Elt Ideal) :=
  Host.gather gather_S50000x128_S800000x1_S800000x128_1_0_n_n_0_1_1128 x0 (srcIdx x1)

/-- THE KERNEL PROGRAM'S RESULT: every edge's message added into its destination node's row of a zero array. -/
def result (x0 : (⟨S50000x128, .f32⟩ : BufTy).Contents (Elt Ideal)) (x1 : (⟨S2x800000, .i32⟩ : BufTy).Contents (Elt Ideal))
    (x2 : (⟨S800000x64, .f32⟩ : BufTy).Contents (Elt Ideal)) (x3 : (⟨S192x128, .f32⟩ : BufTy).Contents (Elt Ideal))
    (x4 : (⟨S128, .f32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (dstIdx x1)
    (Cert.Message.msg (gathered x0 x1) x2 x3 x4)

/-! ## `rows` of the cut weight and the one-row bias is the specification -/

/-- Row k of the weight's lower piece is row 64 + k of the weight. -/
theorem lower_piece (x3 : S192x128.Idx → EReal) (k : Fin 128) (o : Fin 128) :
    extractStridedSlice S128x128 ![64, 0] x3 slices_S192x128_S128x128_64_0 (ix2 k o) = x3 (ix2 (hi k) o) :=
  extractStridedSlice_apply ![64, 0] x3 slices_S192x128_S128x128_64_0 (ix2 k o) (ix2 (hi k) o) (fun a => by
    match a with
    | ⟨0, _⟩ => rfl
    | ⟨1, _⟩ => show o.val = 0 + o.val; omega)

/-- Row k of the weight's upper piece is row k of the weight. -/
theorem upper_piece (x3 : S192x128.Idx → EReal) (k : Fin 64) (o : Fin 128) :
    extractStridedSlice S64x128 ![0, 0] x3 slices_S192x128_S64x128_0_0 (ix2 k o) = x3 (ix2 (lo k) o) :=
  extractStridedSlice_apply ![0, 0] x3 slices_S192x128_S64x128_0_0 (ix2 k o) (ix2 (lo k) o) (fun a => by
    match a with
    | ⟨0, _⟩ => show k.val = 0 + k.val; omega
    | ⟨1, _⟩ => show o.val = 0 + o.val; omega)

/-- What the region leaves, of the cut weight and the one-row bias, is the specification's message array. -/
theorem rows_eq_msg (xj : S800000x128.Idx → EReal) (x2 : S800000x64.Idx → EReal) (x3 : S192x128.Idx → EReal) (x4 : S128.Idx → EReal) :
    Cert.KernelIdeal.Region.rows xj x2 (extractStridedSlice S128x128 ![64, 0] x3 slices_S192x128_S128x128_64_0)
        (extractStridedSlice S64x128 ![0, 0] x3 slices_S192x128_S64x128_0_0) (shapeCast S1x128 x4 shapeCasts_S128_S1x128)
      = Cert.Message.msg xj x2 x3 x4 := by
  funext i
  obtain ⟨e, o, rfl⟩ : ∃ (e : Fin 800000) (o : Fin 128), i = ix2 e o := ⟨i 0, i 1, eq_ix2 i⟩
  show max ((∑ k : Fin 128, xj (ix2 e k) * extractStridedSlice S128x128 ![64, 0] x3 slices_S192x128_S128x128_64_0 (ix2 k o))
        + (∑ k : Fin 64, x2 (ix2 e k) * extractStridedSlice S64x128 ![0, 0] x3 slices_S192x128_S64x128_0_0 (ix2 k o))
        + shapeCast S1x128 x4 shapeCasts_S128_S1x128 (ix2 (0 : Fin 1) o)) Cert.Message.zero
    = max ((∑ k : Fin 128, xj (ix2 e k) * x3 (ix2 (hi k) o)) + (∑ k : Fin 64, x2 (ix2 e k) * x3 (ix2 (lo k) o)) + x4 (ix1 o))
        Cert.Message.zero
  simp only [lower_piece, upper_piece, shapeCast_a_1a_apply]

/-! ## The arrays the region finds -/

variable (m : (ℓ : Loc nD τ sig) → Buf (Elt Ideal) ℓ) (ρ : Dev nD → PrngReg)

theorem V_gathered (c : Dev nD) : V m c main_v10 = gathered (m ((c : Thread nD τ).loc main_arg0)) (m ((c : Thread nD τ).loc main_arg1)) := by
  show StableHlo.after hostOps0 (fun b => m (c, b)) (Proc.devRef .tc main_v10) = _
  unfold gathered srcIdx
  after_results <;> rfl

theorem V_lower (c : Dev nD) : V m c main_v12 = extractStridedSlice S128x128 ![64, 0] (m ((c : Thread nD τ).loc main_arg3)) slices_S192x128_S128x128_64_0 := by
  show StableHlo.after hostOps0 (fun b => m (c, b)) (Proc.devRef .tc main_v12) = _
  after_results <;> rfl

theorem V_upper (c : Dev nD) : V m c main_v11 = extractStridedSlice S64x128 ![0, 0] (m ((c : Thread nD τ).loc main_arg3)) slices_S192x128_S64x128_0_0 := by
  show StableHlo.after hostOps0 (fun b => m (c, b)) (Proc.devRef .tc main_v11) = _
  after_results <;> rfl

theorem V_bias (c : Dev nD) : V m c main_v13 = shapeCast S1x128 (m ((c : Thread nD τ).loc main_arg4)) shapeCasts_S128_S1x128 := by
  show StableHlo.after hostOps0 (fun b => m (c, b)) (Proc.devRef .tc main_v13) = _
  after_results <;> rfl

theorem V_dstRow (c : Dev nD) : V m c main_v3
    = shapeCast _ (extractStridedSlice S1x800000 ![1, 0] (m ((c : Thread nD τ).loc main_arg1)) slices_S2x800000_S1x800000_1_0) shapeCasts_S1x800000_S800000 := by
  show StableHlo.after hostOps0 (fun b => m (c, b)) (Proc.devRef .tc main_v3) = _
  after_results <;> rfl

/-- THE MESSAGE ARRAY after the region is the specification's, of the gathered features and the arguments. -/
theorem messages (c : Dev nD) : (dats m 0 c).arrAt 5 cfg0.N
    = Cert.Message.msg (gathered (m ((c : Thread nD τ).loc main_arg0)) (m ((c : Thread nD τ).loc main_arg1)))
        (m ((c : Thread nD τ).loc main_arg2)) (m ((c : Thread nD τ).loc main_arg3)) (m ((c : Thread nD τ).loc main_arg4)) := by
  rw [Cert.KernelIdeal.Region.final, V_gathered, V_main_arg2, V_lower, V_upper, V_bias]
  exact rows_eq_msg _ _ _ _

/-! ## The lines after the region, and the whole run -/

/-- After the region's array and the destination row are read back, the last host lines leave `result`. -/
theorem tail (c : Dev nD) : Pipeline.afterTail₀ cfgs (dats m) 0 (V0 m) [hostOps1] c main_v17
    = result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v17) = _
  after_results
  have eMsg : Pipeline.withArrays (cfgs 0).spec c (V0 m c) (fun w => (dats m 0 c).arrAt w (cfgs 0).N) (Proc.devRef .tc main_v14)
      = Cert.Message.msg (gathered (m ((c : Thread nD τ).loc main_arg0)) (m ((c : Thread nD τ).loc main_arg1)))
          (m ((c : Thread nD τ).loc main_arg2)) (m ((c : Thread nD τ).loc main_arg3)) (m ((c : Thread nD τ).loc main_arg4)) :=
    (Pipeline.withArrays_arr spec0 launch0.win.arr_inj c _ _ 5).trans (messages m c)
  have eDst : Pipeline.withArrays (cfgs 0).spec c (V0 m c) (fun w => (dats m 0 c).arrAt w (cfgs 0).N) (Proc.devRef .tc main_v3)
      = shapeCast _ (extractStridedSlice S1x800000 ![1, 0] (m ((c : Thread nD τ).loc main_arg1)) slices_S2x800000_S1x800000_1_0) shapeCasts_S1x800000_S800000 :=
    (Pipeline.withArrays_of_ne _ c (V0 m c) _ main_v3 (by exact (by decide : ∀ w, Pipeline.arrRef spec0 w ≠ main_v3))).trans (V_dstRow m c)
  rw [eMsg, eDst]
  rfl

/-- THE KERNEL PROGRAM'S RUN: every weakly fair execution ends with the result buffer at `result` of the argument
    arrays, and the argument arrays as they were. -/
theorem run : θ_run defs (onTc (τ := τ) (main (F := Ideal))) ⟨m, fun _ => 0, ρ⟩ fun r => ∀ c : Dev nD,
      r.2.mem ((c.tc : Thread nD τ).loc main_v17)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Around

end
-- ==== Proof.ReferenceMessage.lean ====
/-
  The reference's message array is the specification's.

  The reference lays each edge's 64 edge features and the 128 features of its source node end to end as one row of
  192 entries, takes one product of that row with all 192 rows of the weight, adds the bias and rectifies. Read at
  entry (e, o): column k of the joined row is ea(e, k) for k below 64 and xj(e, k − 64) from 64 on, so the sum over
  192 columns splits into the edge-feature part against weight rows 0..63 and the node-feature part against rows
  64..191 — the two partial sums of the specification.
-/
import proofs.«159112_j36807869727435_1_alg».proof.Proof.Gen.ReferenceIdeal.Read
import proofs.«159112_j36807869727435_1_alg».proof.Proof.MessageSpec
import Idealize.ShloMosaic.Lib.Pipeline.Value
import Idealize.ShloMosaic.Lib.ValueIdx

noncomputable section

namespace Cert.ReferenceIdeal.RefMessage

open Cert.ReferenceIdeal Cert.ReferenceIdeal.Gen Cert.ReferenceIdeal.Read Idealize.ShloMosaic Idealize.ShloMosaic.ValueIdx
open Cert.Message (lo hi)

/-- The joined row at a column below 64 is the edge feature at that column. -/
theorem joined_lo (ea : S800000x64.Idx → EReal) (xj : S800000x128.Idx → EReal) (e : Fin 800000) (k : Fin 64) :
    concatenate S800000x192 1 [⟨S800000x64, ea⟩, ⟨S800000x128, xj⟩] concatenates_S800000x64_S800000x128_S800000x192_d1 (ix2 e (lo k))
      = ea (ix2 e k) :=
  concatenate_pair_apply_left 1 ea xj _ (ix2 e (lo k)) rfl (ix2 e k) (fun b => by
    match b with
    | ⟨0, _⟩ => rfl
    | ⟨1, _⟩ => rfl)

/-- The joined row at column 64 + k is the source node's feature k. -/
theorem joined_hi (ea : S800000x64.Idx → EReal) (xj : S800000x128.Idx → EReal) (e : Fin 800000) (k : Fin 128) :
    concatenate S800000x192 1 [⟨S800000x64, ea⟩, ⟨S800000x128, xj⟩] concatenates_S800000x64_S800000x128_S800000x192_d1 (ix2 e (hi k))
      = xj (ix2 e k) :=
  concatenate_pair_apply_right 1 ea xj _ (ix2 e (hi k)) rfl rfl (ix2 e k) (fun b hb => by
    match b with
    | ⟨0, _⟩ => rfl
    | ⟨1, _⟩ => exact absurd rfl hb) (by show k.val + 64 = 64 + k.val; omega)

/-- The product reads the joined row e at column k … -/
theorem left_index (e : Fin 800000) (o : Fin 128) (k : Fin 192) : lidx_main_v12 (ix2 e o) k = ix2 e k :=
  funext fun a => Fin.ext (by match a with | ⟨0, _⟩ => rfl | ⟨1, _⟩ => rfl)
/-- … against the weight's row k at column o. -/
theorem right_index (e : Fin 800000) (o : Fin 128) (k : Fin 192) : ridx_main_v12 (ix2 e o) k = ix2 k o :=
  funext fun a => Fin.ext (by match a with | ⟨0, _⟩ => rfl | ⟨1, _⟩ => rfl)
/-- The bias, laid along a one-row array and that row down all rows, is read at o. -/
theorem bias_index (e : Fin 800000) (o : Fin 128) : idx_main_v13 (idx_main_v14 (ix2 e o)) = ix1 o :=
  funext fun a => Fin.ext (by match a with | ⟨0, _⟩ => rfl)

/-- THE REFERENCE'S MESSAGES are the specification's, of the gathered node features and the arguments. -/
theorem messages_eq (x0 : (⟨S50000x128, .f32⟩ : BufTy).Contents (Elt Ideal)) (x1 : (⟨S2x800000, .i32⟩ : BufTy).Contents (Elt Ideal))
    (x2 : (⟨S800000x64, .f32⟩ : BufTy).Contents (Elt Ideal)) (x3 : (⟨S192x128, .f32⟩ : BufTy).Contents (Elt Ideal))
    (x4 : (⟨S128, .f32⟩ : BufTy).Contents (Elt Ideal)) :
    val_main_v16 (F := Ideal) x0 x1 x2 x3 x4 = Cert.Message.msg (val_main_v10 (F := Ideal) x0 x1) x2 x3 x4 := by
  funext i
  obtain ⟨e, o, rfl⟩ : ∃ (e : Fin 800000) (o : Fin 128), i = ix2 e o := ⟨i 0, i 1, eq_ix2 i⟩
  rw [val_main_v16_apply, val_main_v15_apply, val_main_v12_apply, val_main_v14_apply, val_main_v13_apply,
    val_main_call0_v0_apply, val_main_call0_cst_apply, Cert.Message.sum_split]
  simp only [left_index, right_index, bias_index]
  unfold val_main_v11
  simp only [joined_lo, joined_hi]
  rfl

end Cert.ReferenceIdeal.RefMessage

end
-- ==== Proof.lean ====
/-
  A graph layer's message passing, computed two ways, gives the same node sums over the extended reals.

  Both programs take node features x (50000 × 128), an edge list (2 × 800000: sources, destinations), edge features
  ea (800000 × 64), a weight W (192 × 128) and a bias b (128). For every edge e they form the message

      msg(e, o) = max( Σ_{k<64} ea(e,k) · W(k,o) + Σ_{k<128} x(src e, k) · W(64+k, o) + b(o), 0 )

  and add msg(e, ·) into row dst(e) of a zero array. They differ only in how the sum inside is arranged. One
  program gathers x(src e, ·), cuts W into its first 64 and last 128 rows, and on blocks of 4000 edges multiplies
  the gathered features by the last rows and the edge features by the first rows, adding the two products. The other
  joins ea(e, ·) and x(src e, ·) into one row of 192 entries and multiplies by all of W at once. A sum over 64 + 128
  indices is the sum over the first 64 plus the sum over the last 128, and addition of extended reals commutes, so
  the messages agree entry by entry; the gather before and the sum over destinations after are the same operations
  applied to the same arrays. Nothing here needs an entry to be finite.

  The parts: the specification and the split of the sum (MessageSpec); the kernel body's stored block entry by
  entry (BodyValue, over LibPlainDot's plain matrix product); the region's output as one function of the arrays
  it reads (KernelArray); the host lines around the region and the kernel program's run (KernelAround); the other
  program's message array read entry by entry (ReferenceMessage). Below: the two results are one term, and the claims.
-/
import proofs.«159112_j36807869727435_1_alg».proof.Defs
import proofs.«159112_j36807869727435_1_alg».proof.Proof.Gen.Kernel
import proofs.«159112_j36807869727435_1_alg».proof.Proof.Gen.Kernel.Skeleton
import proofs.«159112_j36807869727435_1_alg».proof.Proof.Gen.Kernel.Launch
import proofs.«159112_j36807869727435_1_alg».proof.Proof.Gen.Kernel.Points
import proofs.«159112_j36807869727435_1_alg».proof.Proof.Gen.Kernel.Frame
import proofs.«159112_j36807869727435_1_alg».proof.Proof.Gen.KernelIdeal
import proofs.«159112_j36807869727435_1_alg».proof.Proof.Gen.KernelIdeal.Skeleton
import proofs.«159112_j36807869727435_1_alg».proof.Proof.Gen.KernelIdeal.Launch
import proofs.«159112_j36807869727435_1_alg».proof.Proof.Gen.KernelIdeal.Points
import proofs.«159112_j36807869727435_1_alg».proof.Proof.Gen.KernelIdeal.Frame
import proofs.«159112_j36807869727435_1_alg».proof.Proof.Gen.ReferenceIdeal
import proofs.«159112_j36807869727435_1_alg».proof.Proof.Gen.Pre_finite_inputs
import proofs.«159112_j36807869727435_1_alg».proof.Proof.Gen.ReferenceIdeal.Run
import proofs.«159112_j36807869727435_1_alg».proof.Proof.Gen.ReferenceIdeal.Read
import proofs.«159112_j36807869727435_1_alg».proof.Proof.KernelAround
import proofs.«159112_j36807869727435_1_alg».proof.Proof.ReferenceMessage
import Idealize.ShloMosaic.Adequacy
import Idealize.ShloMosaic.Init

noncomputable section

namespace Cert.Proof

open Idealize.ShloMosaic Idealize.ShloMosaic.TcCoe Idealize.SL.Sem

/-- The other program's result — the same sum over destinations, of its own message array — is the kernel
    program's `result`: the two message arrays are the specification's (of the same gathered features), and the
    zero array, the destination numbers and the gather are spelt by the same operations. -/
theorem reference_result (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S800000x64, .f32⟩ : BufTy).Contents (Elt Ideal))
    (x3 : (⟨Cert.ReferenceIdeal.S192x128, .f32⟩ : BufTy).Contents (Elt Ideal))
    (x4 : (⟨Cert.ReferenceIdeal.S128, .f32⟩ : BufTy).Contents (Elt Ideal)) :
    Cert.ReferenceIdeal.Read.val_main_v19 (F := Ideal) x0 x1 x2 x3 x4 = Cert.KernelIdeal.Around.result x0 x1 x2 x3 x4 := by
  unfold Cert.ReferenceIdeal.Read.val_main_v19
  rw [Cert.ReferenceIdeal.RefMessage.messages_eq]
  rfl

/-- The word-level kernel program runs and keeps its arguments. -/
theorem frame_kernel : Cert.frame_Kernel := fun m ρ _ => Cert.Kernel.Gen.frame m ρ
/-- So does its reading over the extended reals. -/
theorem frame_kernelIdeal : Cert.frame_KernelIdeal := fun m ρ _ => Cert.KernelIdeal.Gen.frame m ρ
/-- The other program runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote no operation. -/
theorem preserves : Cert.preserves_Kernel_KernelIdeal := trivial

/-- From memories that agree on the arguments both programs end with the node sums `result` of those arguments. -/
theorem algebraic : Cert.algebraic_KernelIdeal_ReferenceIdeal := by
  intro m ρ m' ρ' _ hagree
  refine ⟨fun c => Cert.KernelIdeal.Around.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, reference_result, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
